-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x512x3 : Shape := ⟨4, ![16, 512, 512, 3]⟩
abbrev S16x256x3 : Shape := ⟨3, ![16, 256, 3]⟩
abbrev S_ : Shape := ⟨0, ![]⟩

class Facts : Prop where
  bcast_S_S16x512x512x3 : S_.BroadcastsInDim S16x512x512x3 (![] : Fin 0 → Fin S16x512x512x3.rank)
  reducesTo_S16x512x512x3_S_d0_1_2_3 : S16x512x512x3.ReducesTo [0, 1, 2, 3] S_
  h_S_ : 0 < S_.numel
  bcast_S_S16x256x3 : S_.BroadcastsInDim S16x256x3 (![] : Fin 0 → Fin S16x256x3.rank)
  reducesTo_S16x256x3_S_d0_1_2 : S16x256x3.ReducesTo [0, 1, 2] S_

variable [Facts]

def fn {F : FTy → Type} [FloatOps F] (main_arg0 : FVec F S16x512x512x3 .f32) (main_arg1 : FVec F S16x256x3 .f32) : IVec S_ 1 :=
  let main_v0 : FVec F S16x512x512x3 .f32 := Host.absf main_arg0
  let main_cst : FVec F S_ .f32 := constant S_ .f32 0x7F800000#32
  let main_v1 : FVec F S16x512x512x3 .f32 := broadcastInDim S16x512x512x3 ![] bcast_S_S16x512x512x3 main_cst
  let main_v2 : IVec S16x512x512x3 1 := cmpf .olt main_v0 main_v1
  let main_c : IVec S_ 1 := constantI S_ 1 1#1
  let main_v3 : IVec S_ 1 := (fun x v => Host.reduce IntOp.andi x v reducesTo_S16x512x512x3_S_d0_1_2_3 h_S_) main_v2 main_c
  let main_v4 : FVec F S16x256x3 .f32 := Host.absf main_arg1
  let main_cst_0 : FVec F S_ .f32 := constant S_ .f32 0x7F800000#32
  let main_v5 : FVec F S16x256x3 .f32 := broadcastInDim S16x256x3 ![] bcast_S_S16x256x3 main_cst_0
  let main_v6 : IVec S16x256x3 1 := cmpf .olt main_v4 main_v5
  let main_c_1 : IVec S_ 1 := constantI S_ 1 1#1
  let main_v7 : IVec S_ 1 := (fun x v => Host.reduce IntOp.andi x v reducesTo_S16x256x3_S_d0_1_2 h_S_) main_v6 main_c_1
  let main_v8 : IVec S_ 1 := andi main_v3 main_v7
  main_v8
-- ==== Kernel.lean ====
abbrev S16x512x512x3 : Shape := ⟨4, ![16, 512, 512, 3]⟩
abbrev S16x256x3 : Shape := ⟨3, ![16, 256, 3]⟩
abbrev S16x262144x3 : Shape := ⟨3, ![16, 262144, 3]⟩
abbrev S16x16x16x3 : Shape := ⟨4, ![16, 16, 16, 3]⟩
abbrev S1x4096x3 : Shape := ⟨3, ![1, 4096, 3]⟩
abbrev S1x16x16x3 : Shape := ⟨4, ![1, 16, 16, 3]⟩
abbrev S4096x3 : Shape := ⟨2, ![4096, 3]⟩
abbrev S16x16x3 : Shape := ⟨3, ![16, 16, 3]⟩
abbrev S4096x16 : Shape := ⟨2, ![4096, 16]⟩
abbrev S4096x1 : Shape := ⟨2, ![4096, 1]⟩
abbrev S16x16x1 : Shape := ⟨3, ![16, 16, 1]⟩
abbrev S16x16 : Shape := ⟨2, ![16, 16]⟩
abbrev S4096 : Shape := ⟨1, ![4096]⟩

abbrev nBuf : Space → Nat
  | .hbm => 10
  | .vmem => 8
  | .smem => 0
  | _ => 0

abbrev bufTy : (tb : Table) → Fin (tcTables nBuf tb) → BufTy
  | .hbm, ⟨0, _⟩ => ⟨S16x512x512x3, .f32⟩
  | .hbm, ⟨1, _⟩ => ⟨S16x256x3, .f32⟩
  | .hbm, ⟨2, _⟩ => ⟨S16x262144x3, .f32⟩
  | .hbm, ⟨3, _⟩ => ⟨S16x16x16x3, .f32⟩
  | .hbm, ⟨4, _⟩ => ⟨S16x16x16x3, .bf16⟩
  | .hbm, ⟨5, _⟩ => ⟨S16x16x16x3, .f32⟩
  | .hbm, ⟨6, _⟩ => ⟨S16x16x16x3, .f32⟩
  | .hbm, ⟨7, _⟩ => ⟨S16x16x16x3, .bf16⟩
  | .hbm, ⟨8, _⟩ => ⟨S16x262144x3, .f32⟩
  | .hbm, ⟨9, _⟩ => ⟨S16x512x512x3, .f32⟩
  | .local _ .vmem, ⟨0, _⟩ => ⟨S1x4096x3, .f32⟩
  | .local _ .vmem, ⟨1, _⟩ => ⟨S1x4096x3, .f32⟩
  | .local _ .vmem, ⟨2, _⟩ => ⟨S1x16x16x3, .bf16⟩
  | .local _ .vmem, ⟨3, _⟩ => ⟨S1x16x16x3, .bf16⟩
  | .local _ .vmem, ⟨4, _⟩ => ⟨S1x16x16x3, .bf16⟩
  | .local _ .vmem, ⟨5, _⟩ => ⟨S1x16x16x3, .bf16⟩
  | .local _ .vmem, ⟨6, _⟩ => ⟨S1x4096x3, .f32⟩
  | .local _ .vmem, ⟨7, _⟩ => ⟨S1x4096x3, .f32⟩
  | _, _ => ⟨S16x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x16x3 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x16x3 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16x512x512x3_S16x262144x3 : S16x512x512x3.ShapeCasts S16x262144x3
  shapeCasts_S16x256x3_S16x16x16x3 : S16x256x3.ShapeCasts S16x16x16x3
  bitsLt_bf16_f32 : FTy.bits .bf16 < FTy.bits .f32
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x16x16x3_S1x16x16x3_0_0_0_0 : ∀ a, (![0, 0, 0, 0] : Fin 4 → Nat) a + S1x16x16x3.size a ≤ S1x16x16x3.size a
  h_S1x16x16x3 : 0 < S1x16x16x3.numel
  shapeCasts_S1x16x16x3_S16x16x3 : S1x16x16x3.ShapeCasts S16x16x3
  natLt_1_32 : 1 < 32
  iota_S4096x16_d1_w32 : S4096x16.Iotas .tc 32 [1]
  slices_S4096x3_o0_0_S4096x1 : S4096x3.Slices ![0, 0] S4096x1
  broadcasts_S4096x1_S4096x16 : S4096x1.Broadcasts S4096x16
  slices_S16x16x3_o0_0_0_S16x16x1 : S16x16x3.Slices ![0, 0, 0] S16x16x1
  shapeCasts_S16x16x1_S16x16 : S16x16x1.ShapeCasts S16x16
  reduces_S4096x16_S4096 : S4096x16.Reduces [1] S4096
  shapeCasts_S4096_S4096x1 : S4096.ShapeCasts S4096x1
  slices_S4096x3_o0_1_S4096x1 : S4096x3.Slices ![0, 1] S4096x1
  slices_S16x16x3_o0_0_1_S16x16x1 : S16x16x3.Slices ![0, 0, 1] S16x16x1
  slices_S4096x3_o0_2_S4096x1 : S4096x3.Slices ![0, 2] S4096x1
  slices_S16x16x3_o0_0_2_S16x16x1 : S16x16x3.Slices ![0, 0, 2] S16x16x1
  concatenates_S4096x1_S4096x1_S4096x1_S4096x3_d1 : Shape.Concatenates [S4096x1, S4096x1, S4096x1] S4096x3 1
  shapeCasts_S4096x3_S1x4096x3 : S4096x3.ShapeCasts S1x4096x3
  shapeCasts_S16x262144x3_S16x512x512x3 : S16x262144x3.ShapeCasts S16x512x512x3
  dot_S4096x16_S16x16_S4096x16_1_0_0_1_n_n_wf : DotDims.WF S4096x16 S16x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x262144x3.size a
  hwx0_0 : ∀ i : grid0.Coords, EltTy.bits .f32 = 32 ∨ (Rect.block (s := S16x262144x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x16x3.size a ≤ S16x16x16x3.size a
  hwx0_1 : ∀ i : grid0.Coords, EltTy.bits .bf16 = 32 ∨ (Rect.block (s := S16x16x16x3) S1x16x16x3.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x16x3.size a ≤ S16x16x16x3.size a
  hwx0_2 : ∀ i : grid0.Coords, EltTy.bits .bf16 = 32 ∨ (Rect.block (s := S16x16x16x3) S1x16x16x3.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x3.size a ≤ S16x262144x3.size a
  hwx0_3 : ∀ i : grid0.Coords, EltTy.bits .f32 = 32 ∨ (Rect.block (s := S16x262144x3) S1x4096x3.size (cc0_transform_3 i) (hinb0_3 i)).WholeWords (EltTy.packing .f32)

variable [Facts₀]

def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf

abbrev win0_0 : Pipeline.Window sig grid0 :=
  Pipeline.Window.ofSpec (Memref.whole main_v0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x16x16x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x16x16x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x4096x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x512x3 : Shape := ⟨4, ![16, 512, 512, 3]⟩
abbrev S16x256x3 : Shape := ⟨3, ![16, 256, 3]⟩
abbrev S_ : Shape := ⟨0, ![]⟩
abbrev S16x262144x3 : Shape := ⟨3, ![16, 262144, 3]⟩
abbrev S16x262144x3x1 : Shape := ⟨4, ![16, 262144, 3, 1]⟩
abbrev S1 : Shape := ⟨1, ![1]⟩
abbrev S1x1x1x1 : Shape := ⟨4, ![1, 1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S16x512x512x3, .f32⟩
  | .hbm, ⟨1, _⟩ => ⟨S16x256x3, .f32⟩
  | .hbm, ⟨2, _⟩ => ⟨S_, .f32⟩
  | .hbm, ⟨3, _⟩ => ⟨S16x512x512x3, .f32⟩
  | .hbm, ⟨4, _⟩ => ⟨S16x512x512x3, .f32⟩
  | .hbm, ⟨5, _⟩ => ⟨S16x512x512x3, .f32⟩
  | .hbm, ⟨6, _⟩ => ⟨S16x512x512x3, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16x512x512x3, .i32⟩
  | .hbm, ⟨11, _⟩ => ⟨S16x512x512x3, .i32⟩
  | .hbm, ⟨12, _⟩ => ⟨S_, .i32⟩
  | .hbm, ⟨13, _⟩ => ⟨S16x512x512x3, .i32⟩
  | .hbm, ⟨14, _⟩ => ⟨S16x512x512x3, .i32⟩
  | .hbm, ⟨15, _⟩ => ⟨S16x262144x3, .i32⟩
  | .hbm, ⟨16, _⟩ => ⟨S_, .i32⟩
  | .hbm, ⟨17, _⟩ => ⟨S16x262144x3, .i32⟩
  | .hbm, ⟨18, _⟩ => ⟨S16x262144x3, .i1⟩
  | .hbm, ⟨19, _⟩ => ⟨S_, .i32⟩
  | .hbm, ⟨20, _⟩ => ⟨S16x262144x3, .i32⟩
  | .hbm, ⟨21, _⟩ => ⟨S16x262144x3, .i32⟩
  | .hbm, ⟨22, _⟩ => ⟨S16x262144x3, .i32⟩
  | .hbm, ⟨23, _⟩ => ⟨S16x262144x3x1, .i32⟩
  | .hbm, ⟨24, _⟩ => ⟨S1, .i32⟩
  | .hbm, ⟨25, _⟩ => ⟨S_, .i32⟩
  | .hbm, ⟨26, _⟩ => ⟨S16x262144x3x1, .i32⟩
  | .hbm, ⟨27, _⟩ => ⟨S16x262144x3x1, .i1⟩
  | .hbm, ⟨28, _⟩ => ⟨S1x1x1x1, .i32⟩
  | .hbm, ⟨29, _⟩ => ⟨S16x262144x3x1, .i32⟩
  | .hbm, ⟨30, _⟩ => ⟨S16x262144x3x1, .i1⟩
  | .hbm, ⟨31, _⟩ => ⟨S16x262144x3x1, .i1⟩
  | .hbm, ⟨32, _⟩ => ⟨S_, .i1⟩
  | .hbm, ⟨33, _⟩ => ⟨S16x262144x3, .i1⟩
  | .hbm, ⟨34, _⟩ => ⟨S16x262144x3, .f32⟩
  | .hbm, ⟨35, _⟩ => ⟨S_, .f32⟩
  | .hbm, ⟨36, _⟩ => ⟨S16x262144x3, .f32⟩
  | .hbm, ⟨37, _⟩ => ⟨S16x262144x3, .f32⟩
  | .hbm, ⟨38, _⟩ => ⟨S16x512x512x3, .f32⟩
  | _, _ => ⟨S16x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v4 : Ref sig .tc := ⟨.hbm, 14, rfl⟩
abbrev main_v5 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_cst : Ref sig .tc := ⟨.hbm, 35, rfl⟩
abbrev main_call2_v14 : Ref sig .tc := ⟨.hbm, 36, rfl⟩
abbrev main_v6 : Ref sig .tc := ⟨.hbm, 37, rfl⟩
abbrev main_v7 : Ref sig .tc := ⟨.hbm, 38, rfl⟩

abbrev nD : Nat := 1
abbrev τ : Topo := Topo.v7x

variable {F : FTy → Type} [FloatOps F]

class Facts₀ : Prop where
  bcast_S_S16x512x512x3 : S_.BroadcastsInDim S16x512x512x3 (![] : Fin 0 → Fin S16x512x512x3.rank)
  shapeCasts_S16x512x512x3_S16x262144x3 : S16x512x512x3.ShapeCasts S16x262144x3
  bcast_S_S16x262144x3 : S_.BroadcastsInDim S16x262144x3 (![] : Fin 0 → Fin S16x262144x3.rank)
  shapeCasts_S16x262144x3_S16x262144x3x1 : S16x262144x3.ShapeCasts S16x262144x3x1
  bcast_S_S16x262144x3x1 : S_.BroadcastsInDim S16x262144x3x1 (![] : Fin 0 → Fin S16x262144x3x1.rank)
  bcast_S1_S1x1x1x1_3 : S1.BroadcastsInDim S1x1x1x1 (![3] : Fin 1 → Fin S1x1x1x1.rank)
  bcast_S1x1x1x1_S16x262144x3x1_0_1_2_3 : S1x1x1x1.BroadcastsInDim S16x262144x3x1 (![0, 1, 2, 3] : Fin 4 → Fin S16x262144x3x1.rank)
  reducesTo_S16x262144x3x1_S16x262144x3_d3 : S16x262144x3x1.ReducesTo [3] S16x262144x3
  h_S_ : 0 < S_.numel
  shapeCasts_S16x262144x3_S16x512x512x3 : S16x262144x3.ShapeCasts S16x512x512x3
  gather_S16x256x3_S16x262144x3x1_S16x262144x3_n_1_02_02_1_3_111_wf : GatherDims.WF S16x256x3 S16x262144x3x1 S16x262144x3 [] [1] [0, 2] [1] [0, 2] 3 ![1, 1, 1]

variable [Facts₀]

def gather_S16x256x3_S16x262144x3x1_S16x262144x3_n_1_02_02_1_3_111 : GatherDims S16x256x3 S16x262144x3x1 S16x262144x3 where
  offsetDims := []
  collapsedSliceDims := [1]
  operandBatchingDims := [0, 2]
  startIndicesBatchingDims := [0, 2]
  startIndexMap := [1]
  indexVectorDim := 3
  sliceSizes := ![1, 1, 1]
  wf := gather_S16x256x3_S16x262144x3x1_S16x262144x3_n_1_02_02_1_3_111_wf

class Facts : Prop extends Facts₀ where

variable [Facts]
-- ==== Proof.LibPixelIndex.lean ====
/-
  The table position of a pixel, as a 32-bit word.

  A pixel value x (an extended real) is sent to p(x) = trunc(min(255, max(0, n))) with n the nearest integer to 255·x
  (ties to even), the conversion to a 32-bit integer saturating. Three facts about it are proved here, none of which
  mentions a program:

  * clamping BEFORE the saturating conversion (the real clamp to [0, 255], then the conversion) gives the same word as
    clamping AFTER it (the conversion, then the signed integer clamp to [0, 255]): truncation toward zero is monotone
    and fixes the integers 0 and 255, and the conversion's own saturation bounds lie outside [0, 255];
  * the word is below 256;
  * for a word v below 256 the floor quotient by 16 (spelt with a signed division corrected by the signs and the
    remainder, as integer floor division is lowered) is v / 16 and v minus sixteen times it is v % 16, so
    v = 16 · (v / 16) + v % 16 splits a table position into a row and a column of a 16 × 16 arrangement.
-/
import Idealize.ShloMosaic.PureOps.Ideal
import Idealize.ShloMosaic.PureOps.Ideal.Laws

noncomputable section

namespace Cert.Lookup

open Idealize.ShloMosaic

/-- The pattern of `255.0` denotes the real 255. -/
theorem ofBits_255 : Ideal.ofBits .f32 0x437F0000#32 = ((255 : ℝ) : EReal) := by
  simp [Ideal.ofBits, Ideal.ieee, -EReal.coe_mul]; norm_num

/-! ## Clamping before or after the saturating conversion -/

/-- Truncation toward zero saturated to `[lo, hi]`, of the real clamp to `[0, 255]`, is the integer clamp to `[0, 255]`
    of the saturated truncation, whenever `[0, 255]` lies inside `[lo, hi]` — at every extended real. -/
theorem toIntClamped_clamp (lo hi : ℤ) (hlo : lo ≤ 0) (hhi : 255 ≤ hi) (y : EReal) :
    Ideal.toIntClamped lo hi (min ((255 : ℝ) : EReal) (max ((0 : ℝ) : EReal) y))
      = min 255 (max 0 (Ideal.toIntClamped lo hi y)) := by
  induction y using EReal.rec with
  | bot =>
    rw [max_eq_left bot_le, min_eq_right (by exact_mod_cast (by norm_num : (0 : ℝ) ≤ 255))]
    show max lo (min hi (if (0 : ℝ) ≤ 0 then ⌊(0 : ℝ)⌋ else ⌈(0 : ℝ)⌉)) = min 255 (max 0 lo)
    rw [if_pos le_rfl, Int.floor_zero]; omega
  | top =>
    rw [max_eq_right le_top, min_eq_left le_top]
    show max lo (min hi (if (0 : ℝ) ≤ 255 then ⌊(255 : ℝ)⌋ else ⌈(255 : ℝ)⌉)) = min 255 (max 0 hi)
    rw [if_pos (by norm_num), show ⌊(255 : ℝ)⌋ = 255 from by exact_mod_cast Int.floor_intCast (255 : ℤ)]; omega
  | coe r =>
    rw [← (EReal.coe_strictMono.monotone.map_max : (((max (0:ℝ) r : ℝ)) : EReal) = max ((0:ℝ):EReal) (r:EReal)),
      ← (EReal.coe_strictMono.monotone.map_min : (((min (255:ℝ) (max 0 r) : ℝ)) : EReal) = min ((255:ℝ):EReal) ((max 0 r : ℝ):EReal))]
    show max lo (min hi (if 0 ≤ min 255 (max 0 r) then ⌊min 255 (max 0 r)⌋ else ⌈min 255 (max 0 r)⌉))
      = min 255 (max 0 (max lo (min hi (if 0 ≤ r then ⌊r⌋ else ⌈r⌉))))
    rw [if_pos (le_min (by norm_num) (le_max_left _ _))]
    by_cases hr : 0 ≤ r
    · rw [if_pos hr, max_eq_right hr]
      have h0 : 0 ≤ ⌊r⌋ := Int.floor_nonneg.mpr hr
      by_cases h255 : r ≤ 255
      · rw [min_eq_right h255]
        have : ⌊r⌋ < 256 := Int.floor_lt.mpr (by push_cast; linarith)
        omega
      · have h255' : (255 : ℝ) < r := lt_of_not_ge h255
        rw [min_eq_left h255'.le, show ⌊(255 : ℝ)⌋ = 255 from by exact_mod_cast Int.floor_intCast (255 : ℤ)]
        have : 255 ≤ ⌊r⌋ := Int.le_floor.mpr (by push_cast; exact h255'.le)
        omega
    · have hr' : r < 0 := lt_of_not_ge hr
      rw [if_neg hr, max_eq_left hr'.le, min_eq_right (by norm_num : (0 : ℝ) ≤ 255), Int.floor_zero]
      have : ⌈r⌉ ≤ 0 := Int.ceil_le.mpr (by push_cast; exact hr'.le)
      omega

/-- A signed 32-bit word built from an integer in range reads back that integer. -/
theorem toInt_ofInt32 (t : ℤ) (h1 : -2147483648 ≤ t) (h2 : t ≤ 2147483647) : (BitVec.ofInt 32 t).toInt = t := by
  rw [BitVec.toInt_ofInt]
  first
    | omega
    | (simp only [Int.bmod]; split <;> omega)

/-- The signed clamp to `[0, 255]` of a 32-bit word is the word of the clamped integer. -/
theorem word_clamp (t : ℤ) (h1 : -2147483648 ≤ t) (h2 : t ≤ 2147483647) :
    IntOp.minsi 255#32 (IntOp.maxsi 0#32 (BitVec.ofInt 32 t)) = BitVec.ofInt 32 (min 255 (max 0 t)) := by
  have ht := toInt_ofInt32 t h1 h2
  have h0 : (0#32 : BitVec 32).toInt = 0 := by decide
  have h255 : (255#32 : BitVec 32).toInt = 255 := by decide
  unfold IntOp.minsi IntOp.maxsi
  by_cases hneg : t < 0
  · have e : (BitVec.ofInt 32 t).slt 0#32 = true := by rw [BitVec.slt]; simp only [ht, h0, decide_eq_true_eq]; exact hneg
    rw [if_pos e]
    have e2 : ¬ ((255#32 : BitVec 32).slt 0#32 = true) := by decide
    rw [if_neg e2]
    rw [show min 255 (max 0 t) = 0 by omega]; rfl
  · have e : ¬ ((BitVec.ofInt 32 t).slt 0#32 = true) := by rw [BitVec.slt]; simp only [ht, h0, decide_eq_true_eq]; exact hneg
    rw [if_neg e]
    by_cases hbig : 255 < t
    · have e2 : (255#32 : BitVec 32).slt (BitVec.ofInt 32 t) = true := by rw [BitVec.slt]; simp only [ht, h255, decide_eq_true_eq]; exact hbig
      rw [if_pos e2, show min 255 (max 0 t) = 255 by omega]; rfl
    · have e2 : ¬ ((255#32 : BitVec 32).slt (BitVec.ofInt 32 t) = true) := by rw [BitVec.slt]; simp only [ht, h255, decide_eq_true_eq]; exact hbig
      rw [if_neg e2, show min 255 (max 0 t) = t by omega]

/-- The saturated truncation lies between its bounds. -/
theorem toIntClamped_mem (lo hi : ℤ) (h : lo ≤ hi) (y : EReal) :
    lo ≤ Ideal.toIntClamped lo hi y ∧ Ideal.toIntClamped lo hi y ≤ hi := by
  induction y using EReal.rec with
  | bot => exact ⟨le_rfl, h⟩
  | top => exact ⟨h, le_rfl⟩
  | coe r =>
    show lo ≤ max lo (min hi _) ∧ max lo (min hi _) ≤ hi
    omega

/-- CLAMP, THEN CONVERT = CONVERT, THEN CLAMP: at every extended real `y` the saturating conversion of the real clamp
    of `y` to `[0, 255]` is the signed clamp to `[0, 255]` of the saturating conversion of `y`. -/
theorem fptosi_clamp (y : EReal) :
    Ideal.fptosi 32 (min ((255 : ℝ) : EReal) (max ((0 : ℝ) : EReal) y))
      = IntOp.minsi 255#32 (IntOp.maxsi 0#32 (Ideal.fptosi 32 y)) := by
  unfold Ideal.fptosi
  have hb := toIntClamped_mem (-((2 ^ (32 - 1) : Nat) : ℤ)) (((2 ^ (32 - 1) : Nat) : ℤ) - 1) (by norm_num) y
  rw [toIntClamped_clamp _ _ (by norm_num) (by norm_num) y, word_clamp _ (by have := hb.1; norm_num at this ⊢; omega) (by have := hb.2; norm_num at this ⊢; omega)]

/-- The clamped conversion is a word below 256. -/
theorem fptosi_clamp_lt (y : EReal) :
    (Ideal.fptosi 32 (min ((255 : ℝ) : EReal) (max ((0 : ℝ) : EReal) y))).toNat < 256 := by
  unfold Ideal.fptosi
  rw [toIntClamped_clamp _ _ (by norm_num) (by norm_num) y]
  generalize Ideal.toIntClamped _ _ y = t
  have h0 : 0 ≤ min 255 (max 0 t) := by omega
  have h1 : min 255 (max 0 t) ≤ 255 := by omega
  generalize min 255 (max 0 t) = z at h0 h1
  obtain ⟨n, rfl⟩ := Int.eq_ofNat_of_zero_le h0
  rw [BitVec.ofInt_natCast, BitVec.toNat_ofNat]
  have : n < 256 := by omega
  omega

/-! ## A position below 256 as a row and a column of a 16 × 16 arrangement -/

/-- The floor quotient of a 32-bit word by 16 as integer floor division is lowered: the quotient toward zero, less one
    where the signs of dividend and divisor differ and the remainder is not zero. -/
def rowWord (v : BitVec 32) : BitVec 32 :=
  Scalar.select
    (IntOp.andi
      (IntOp.cmpi .ne
        (IntOp.subi ((IntOp.cmpi .sgt v 0#32).setWidth 32) ((IntOp.cmpi .slt v 0#32).setWidth 32))
        (Scalar.subi (Scalar.extui (Scalar.cmpi .sgt 16#32 0#32)) (Scalar.extui (Scalar.cmpi .slt 16#32 0#32))))
      (IntOp.cmpi .ne (IntOp.remsi .vector v 16#32) 0#32))
    (IntOp.subi (IntOp.divsi .vector v 16#32) 1#32)
    (IntOp.divsi .vector v 16#32)

/-- What is left of the word after sixteen times its floor quotient. -/
def colWord (v : BitVec 32) : BitVec 32 := IntOp.subi v (IntOp.muli (rowWord v) 16#32)

/-- For a word below 256 the floor quotient is `v / 16` and the rest `v % 16` (decided on the 256 words). -/
theorem rowWord_colWord_fin : ∀ n : Fin 256,
    rowWord (BitVec.ofNat 32 n.val) = BitVec.ofNat 32 (n.val / 16)
      ∧ colWord (BitVec.ofNat 32 n.val) = BitVec.ofNat 32 (n.val % 16) := by
  decide +kernel

theorem rowWord_of_lt (v : BitVec 32) (hv : v.toNat < 256) : rowWord v = BitVec.ofNat 32 (v.toNat / 16) := by
  have := (rowWord_colWord_fin ⟨v.toNat, hv⟩).1
  rwa [BitVec.ofNat_toNat, BitVec.setWidth_eq] at this

theorem colWord_of_lt (v : BitVec 32) (hv : v.toNat < 256) : colWord v = BitVec.ofNat 32 (v.toNat % 16) := by
  have := (rowWord_colWord_fin ⟨v.toNat, hv⟩).2
  rwa [BitVec.ofNat_toNat, BitVec.setWidth_eq] at this

/-! ## The one-hot factor -/

/-- Comparing two small words for equality gives the bit of the equality of the numbers (decided on 16 × 16). -/
theorem cmpi_eq_small : ∀ h k : Fin 16,
    IntOp.cmpi .eq (BitVec.ofNat 32 h.val) (BitVec.ofNat 32 k.val) = if h = k then 1#1 else 0#1 := by
  decide +kernel

/-- The one-hot factor: the equality bit of two numbers below 16, widened to 32 bits and read as a signed integer, is the
    extended real 1 where they are equal and 0 elsewhere. -/
theorem onehot (h k : Fin 16) :
    ((((IntOp.cmpi .eq (BitVec.ofNat 32 h.val) (BitVec.ofNat 32 k.val)).setWidth 32).toInt : ℝ) : EReal)
      = if h = k then 1 else 0 := by
  rw [cmpi_eq_small]
  split
  · have : ((1#1 : BitVec 1).setWidth 32).toInt = 1 := by decide
    rw [this]; norm_num
  · have : ((0#1 : BitVec 1).setWidth 32).toInt = 0 := by decide
    rw [this]; norm_num

/-! ## The position of a pixel -/

/-- The table position of the pixel value `x`: the nearest integer to `255 · x` (ties to even), clamped to `[0, 255]`
    as a real, converted to a 32-bit integer. The two constants are kept as their patterns. -/
def pos (x : EReal) : BitVec 32 :=
  Ideal.fptosi 32 (min (Ideal.ofBits .f32 0x437F0000#32) (max (Ideal.ofBits .f32 0x00000000#32)
    (Ideal.liftRound Ideal.roundHalfEven (Ideal.ofBits .f32 0x437F0000#32 * x))))

/-- The position is below 256. -/
theorem pos_lt (x : EReal) : (pos x).toNat < 256 := by
  unfold pos
  rw [ofBits_255, Ideal.ofBits_zero_f32, ← EReal.coe_zero]
  exact fptosi_clamp_lt _

/-- The position, with the clamp taken after the conversion on 32-bit integers instead of before it on the reals. -/
theorem pos_eq_clamp_after (x : EReal) :
    pos x = IntOp.minsi 255#32 (IntOp.maxsi 0#32
      (Ideal.fptosi 32 (Ideal.liftRound Ideal.roundHalfEven (Ideal.ofBits .f32 0x437F0000#32 * x)))) := by
  unfold pos
  rw [ofBits_255, Ideal.ofBits_zero_f32, ← EReal.coe_zero]
  rw [fptosi_clamp]

/-- The row of a pixel's position in the 16 × 16 arrangement. -/
def rowOf (x : EReal) : Fin 16 := ⟨(pos x).toNat / 16, by have := pos_lt x; omega⟩
/-- Its column. -/
def colOf (x : EReal) : Fin 16 := ⟨(pos x).toNat % 16, Nat.mod_lt _ (by norm_num)⟩

theorem rowWord_pos (x : EReal) : rowWord (pos x) = BitVec.ofNat 32 (rowOf x).val := rowWord_of_lt _ (pos_lt x)
theorem colWord_pos (x : EReal) : colWord (pos x) = BitVec.ofNat 32 (colOf x).val := colWord_of_lt _ (pos_lt x)
/-- Sixteen times the row plus the column is the position. -/
theorem row_col_pos (x : EReal) : (rowOf x).val * 16 + (colOf x).val = (pos x).toNat := by
  show (pos x).toNat / 16 * 16 + (pos x).toNat % 16 = (pos x).toNat
  omega

/-! ## One-hot sums -/

/-- A sum weighted by a one-hot factor on the left picks one term. -/
theorem sum_onehot_mul {n : ℕ} (h : Fin n) (T : Fin n → EReal) :
    ∑ k : Fin n, (if h = k then (1 : EReal) else 0) * T k = T h := by
  rw [Finset.sum_eq_single h]
  · rw [if_pos rfl, one_mul]
  · intro k _ hk; rw [if_neg (Ne.symm hk), zero_mul]
  · intro hh; exact absurd (Finset.mem_univ h) hh

/-- A sum weighted by a one-hot factor on the right picks one term. -/
theorem sum_mul_onehot {n : ℕ} (l : Fin n) (A : Fin n → EReal) :
    ∑ j : Fin n, A j * (if l = j then (1 : EReal) else 0) = A l := by
  rw [Finset.sum_eq_single l]
  · rw [if_pos rfl, mul_one]
  · intro j _ hj; rw [if_neg (Ne.symm hj), mul_zero]
  · intro hh; exact absurd (Finset.mem_univ l) hh

end Cert.Lookup

end
-- ==== Proof.TableSpec.lean ====
/-
  The specification: a table lookup, pixel by pixel.

  For a flat image x : [16, 262144, 3] and tables it : [16, 256, 3], the result at (b, p, c) is it(b, pos(x(b, p, c)), c):
  channel c of batch entry b's table, at the position of the pixel. Both programs are shown to compute this array
  (then recast to [16, 512, 512, 3]). Also here: the order facts of a word below 256 read as a signed integer — it is
  not negative, it is at least 0 and at most 255, and its signed value is its unsigned one.
-/
import proofs.«102420_j3616362463510_2_alg».proof.Proof.LibPixelIndex
import Idealize.ShloMosaic.Lib.ValueIdx

noncomputable section

namespace Cert.Lookup

open Idealize.ShloMosaic Idealize.ShloMosaic.ValueIdx

/-- The sign and range tests of the 256 small words, decided. -/
theorem small_word_fin : ∀ n : Fin 256,
    IntOp.cmpi .slt (BitVec.ofNat 32 n.val) 0#32 = 0#1
    ∧ IntOp.cmpi .sge (BitVec.ofNat 32 n.val) 0#32 = 1#1
    ∧ IntOp.cmpi .sle (BitVec.ofNat 32 n.val) 255#32 = 1#1
    ∧ (BitVec.ofNat 32 n.val).toInt.toNat = n.val := by
  decide +kernel

/-- A word below 256, read signed, is not negative, is at least 0 and at most 255, and is its unsigned value. -/
theorem small_word (v : BitVec 32) (hv : v.toNat < 256) :
    IntOp.cmpi .slt v 0#32 = 0#1 ∧ IntOp.cmpi .sge v 0#32 = 1#1 ∧ IntOp.cmpi .sle v 255#32 = 1#1
      ∧ v.toInt.toNat = v.toNat := by
  have := small_word_fin ⟨v.toNat, hv⟩
  rwa [BitVec.ofNat_toNat, BitVec.setWidth_eq] at this

/-- The looked-up entry at batch entry `b`, pixel `p`, channel `c`. -/
def lookupAt (x : (⟨3, ![16, 262144, 3]⟩ : Shape).Idx → EReal) (it : (⟨3, ![16, 256, 3]⟩ : Shape).Idx → EReal)
    (b : Fin 16) (p : Fin 262144) (c : Fin 3) : EReal :=
  it (ix3 b (⟨(pos (x (ix3 b p c))).toNat, pos_lt _⟩ : Fin 256) c)

/-- THE SPECIFICATION: the flat image looked up in the tables, entry by entry. -/
def lookup (x : (⟨3, ![16, 262144, 3]⟩ : Shape).Idx → EReal) (it : (⟨3, ![16, 256, 3]⟩ : Shape).Idx → EReal) :
    (⟨3, ![16, 262144, 3]⟩ : Shape).Idx → EReal :=
  fun j => lookupAt x it (j 0) (j 1) (j 2)

theorem lookup_apply (x : (⟨3, ![16, 262144, 3]⟩ : Shape).Idx → EReal) (it : (⟨3, ![16, 256, 3]⟩ : Shape).Idx → EReal)
    (b : Fin 16) (p : Fin 262144) (c : Fin 3) : lookup x it (ix3 b p c) = lookupAt x it b p c := rfl

end Cert.Lookup

end
-- ==== Proof.GatherAlong.lean ====
/-
  Two readings of host operations at explicit coordinates.

  A gather along the middle axis with the first and last axes batched (what taking entries along an axis lowers to):
  for an operand x : [16, 256, 3] and start indices idx : [16, 262144, 3, 1], the result at (b, p, c) is
  x(b, clamp(idx(b, p, c, 0)), c), the start index read signed and clamped into [0, 255].
  A reduction by "and" of an array all of whose entries are 1 returns the initial value.
-/
import proofs.«102420_j3616362463510_2_alg».proof.Proof.Gen.ReferenceIdeal
import Idealize.ShloMosaic.Lib.ValueIdx
import Idealize.ShloMosaic.PureOps.Reduce

noncomputable section

namespace Cert.ReferenceIdeal.RefValue

open Cert.ReferenceIdeal Cert.ReferenceIdeal.Gen Idealize.ShloMosaic Idealize.ShloMosaic.ValueIdx

/-- The gather's dimension numbers. -/
abbrev gd : GatherDims S16x256x3 S16x262144x3x1 S16x262144x3 := gather_S16x256x3_S16x262144x3x1_S16x262144x3_n_1_02_02_1_3_111

/-- The start-indices index `(b, p, c, 0)` that result index `(b, p, c)` reads its one start-index component at. -/
theorem siIdx_eq (b : Fin 16) (p : Fin 262144) (c : Fin 3) (q : Fin gd.startIndexMap.length) :
    gd.siIdx (ix3 b p c) q = ix4 b p c (0 : Fin 1) := by
  funext a; refine Fin.ext ?_
  have hq : q.val = 0 := by have := q.isLt; simp [gd, gather_S16x256x3_S16x262144x3x1_S16x262144x3_n_1_02_02_1_3_111] at this; omega
  match a with
  | ⟨0, _⟩ => rfl
  | ⟨1, _⟩ => rfl
  | ⟨2, _⟩ => rfl
  | ⟨3, _⟩ => exact hq

/-- THE GATHER READ AT `(b, p, c)`. -/
theorem gather_along {α : Type} (x : S16x256x3.Idx → α) (idx : IVec S16x262144x3x1 32) (b : Fin 16) (p : Fin 262144) (c : Fin 3) :
    Host.gather gd x idx (ix3 b p c)
      = x (ix3 b (⟨min (idx (ix4 b p c (0 : Fin 1))).toInt.toNat 255, by omega⟩ : Fin 256) c) := by
  unfold Host.gather
  refine congrArg x (funext fun a => Fin.ext ?_)
  show gd.start (ix3 b p c) idx a + gd.batchCoord (ix3 b p c) a + gd.offCoord (ix3 b p c) a = _
  match a with
  | ⟨0, _⟩ =>
    show gd.start (ix3 b p c) idx 0 + gd.batchCoord (ix3 b p c) 0 + gd.offCoord (ix3 b p c) 0 = b.val
    have hb : (0 : Fin 3) ∈ gd.operandBatchingDims := by decide
    have e0 : gd.start (ix3 b p c) idx 0 = 0 := GatherDims.start_batching gd _ idx 0 hb
    have e1 : gd.offCoord (ix3 b p c) 0 = 0 :=
      GatherDims.offCoord_eq_zero gd _ 0 (fun h => ((GatherDims.mem_sKept gd 0).mp h).2 hb)
    have e2 : gd.batchCoord (ix3 b p c) 0 = b.val := by
      unfold GatherDims.batchCoord
      rw [dif_pos hb]
      rfl
    rw [e0, e1, e2]; omega
  | ⟨1, _⟩ =>
    show gd.start (ix3 b p c) idx 1 + gd.batchCoord (ix3 b p c) 1 + gd.offCoord (ix3 b p c) 1
      = min (idx (ix4 b p c (0 : Fin 1))).toInt.toNat 255
    have h1 : (1 : Fin 3) ∈ gd.startIndexMap := by decide
    have e0 : gd.batchCoord (ix3 b p c) 1 = 0 := GatherDims.batchCoord_eq_zero _ _ _ (by decide)
    have e1 : gd.offCoord (ix3 b p c) 1 = 0 :=
      GatherDims.offCoord_eq_zero _ _ _ (fun h => ((GatherDims.mem_sKept _ _).mp h).1 (by decide))
    rw [e0, e1]
    unfold GatherDims.start
    rw [dif_pos h1, siIdx_eq]
    rfl
  | ⟨2, _⟩ =>
    show gd.start (ix3 b p c) idx 2 + gd.batchCoord (ix3 b p c) 2 + gd.offCoord (ix3 b p c) 2 = c.val
    have hb : (2 : Fin 3) ∈ gd.operandBatchingDims := by decide
    have e0 : gd.start (ix3 b p c) idx 2 = 0 := GatherDims.start_batching gd _ idx 2 hb
    have e1 : gd.offCoord (ix3 b p c) 2 = 0 :=
      GatherDims.offCoord_eq_zero gd _ 2 (fun h => ((GatherDims.mem_sKept gd 2).mp h).2 hb)
    have e2 : gd.batchCoord (ix3 b p c) 2 = c.val := by
      unfold GatherDims.batchCoord
      rw [dif_pos hb]
      rfl
    rw [e0, e1, e2]; omega

/-- A reduction by "and" of an all-ones array is the initial value. -/
theorem reduce_andi_ones {s t u : Shape} {axes : List (Fin s.rank)} (x : s.Idx → BitVec 1) (init : u.Idx → BitVec 1)
    (h : s.ReducesTo axes t) (hu : 0 < u.numel) (hx : ∀ i, x i = 1#1) (j : t.Idx) :
    Host.reduce IntOp.andi x init h hu j = init (Shape.Idx.first hu) := by
  rw [Host.reduce_eq_foldl]
  have key : ∀ (L : List s.Idx) (a : BitVec 1), L.foldl (fun r i => IntOp.andi r (x i)) a = a := by
    intro L
    induction L with
    | nil => intro a; rfl
    | cons i L ih =>
      intro a
      rw [List.foldl_cons, hx i, ih]
      rcases BitVec.eq_zero_or_eq_one a with h0 | h1
      · subst h0; decide
      · subst h1; decide
  exact key _ _

end Cert.ReferenceIdeal.RefValue

end
-- ==== Proof.ReferenceValue.lean ====
/-
  The reference computes the specification.

  Stage by stage, at a flat index (b, p, c): the integer image is the position of the pixel (the clamp taken after the
  conversion equals the clamp taken before it); it is not negative, so the wrap of negative indices leaves it; it lies
  in [0, 255], so the bounds mask is all ones and its reduction is 1; the gather along the table axis reads
  it(b, position, c), the clamp of the start index doing nothing; the final select keeps the gathered entry.
-/
import proofs.«102420_j3616362463510_2_alg».proof.Proof.ReferenceRead
import proofs.«102420_j3616362463510_2_alg».proof.Proof.TableSpec
import proofs.«102420_j3616362463510_2_alg».proof.Proof.GatherAlong

noncomputable section

namespace Cert.ReferenceIdeal.RefValue

open Cert.ReferenceIdeal Cert.ReferenceIdeal.Gen Cert.ReferenceIdeal.ReadP Idealize.ShloMosaic Idealize.ShloMosaic.ValueIdx Cert.Lookup

/-- The clamped integer image at an index of the image: the pixel's position. -/
theorem v4_apply (x0 : (⟨S16x512x512x3, .f32⟩ : BufTy).Contents (Elt Ideal)) (e : S16x512x512x3.Idx) :
    val_main_v4 (F := Ideal) x0 e = pos (x0 e) := by
  rw [val_main_v4_apply, val_main_call1_v4_apply, val_main_call1_v3_apply, val_main_c_0_apply, val_main_call1_v2_apply,
    val_main_call1_v1_apply, val_main_call1_v0_apply, val_main_c_apply, val_main_v3_apply, val_main_v2_apply,
    val_main_v1_apply, val_main_v0_apply, val_main_cst_apply]
  exact (pos_eq_clamp_after (x0 e)).symm

/-- The same on the flat image. -/
theorem v5_apply (x0 : (⟨S16x512x512x3, .f32⟩ : BufTy).Contents (Elt Ideal)) (j : S16x262144x3.Idx) :
    val_main_v5 (F := Ideal) x0 j = pos (shapeCast S16x262144x3 x0 shapeCasts_S16x512x512x3_S16x262144x3 j) := by
  unfold val_main_v5
  exact v4_apply x0 _

/-- The wrap of negative indices leaves a position as it is. -/
theorem call2_v4_apply (x0 : (⟨S16x512x512x3, .f32⟩ : BufTy).Contents (Elt Ideal)) (j : S16x262144x3.Idx) :
    val_main_call2_v4 (F := Ideal) x0 j = pos (shapeCast S16x262144x3 x0 shapeCasts_S16x512x512x3_S16x262144x3 j) := by
  rw [val_main_call2_v4_apply, val_main_call2_v1_apply, val_main_call2_v0_apply, val_main_call2_c_apply, v5_apply,
    (small_word _ (pos_lt _)).1]
  exact select_zero _ _

/-- The start indices, with their trailing unit axis. -/
theorem call2_v5_apply (x0 : (⟨S16x512x512x3, .f32⟩ : BufTy).Contents (Elt Ideal)) (b : Fin 16) (p : Fin 262144) (c : Fin 3) :
    val_main_call2_v5 (F := Ideal) x0 (ix4 b p c (0 : Fin 1))
      = pos (shapeCast S16x262144x3 x0 shapeCasts_S16x512x512x3_S16x262144x3 (ix3 b p c)) := by
  unfold val_main_call2_v5
  exact (shapeCast_apply _ shapeCasts_S16x262144x3_S16x262144x3x1 (ix4 b p c (0 : Fin 1)) (ix3 b p c) (by
    rw [Shape.rowMajor_val_three, Shape.rowMajor_val_four]
    show (b.val * 262144 + p.val) * 3 + c.val = ((b.val * 262144 + p.val) * 3 + c.val) * 1 + 0; omega)).trans
    (call2_v4_apply x0 _)

/-- The bounds mask is 1 everywhere. -/
theorem v11_ones (x0 : (⟨S16x512x512x3, .f32⟩ : BufTy).Contents (Elt Ideal)) (i : S16x262144x3x1.Idx) :
    val_main_call2_v11 (F := Ideal) x0 i = 1#1 := by
  obtain ⟨b, p, c, z, rfl⟩ : ∃ (b : Fin 16) (p : Fin 262144) (c : Fin 3) (z : Fin 1), i = ix4 b p c z :=
    ⟨i 0, i 1, i 2, i 3, eq_ix4 i⟩
  obtain rfl : z = 0 := Subsingleton.elim _ _
  rw [val_main_call2_v11_apply, val_main_call2_v7_apply, val_main_call2_v10_apply, val_main_call2_v6_apply,
    val_main_call2_c_2_apply, val_main_call2_v9_apply, val_main_call2_v8_apply, val_main_call2_c_1_apply, call2_v5_apply,
    (small_word _ (pos_lt _)).2.1, (small_word _ (pos_lt _)).2.2.1]
  decide

/-- So its reduction is 1. -/
theorem v12_one (x0 : (⟨S16x512x512x3, .f32⟩ : BufTy).Contents (Elt Ideal)) (j : S16x262144x3.Idx) :
    val_main_call2_v12 (F := Ideal) x0 j = 1#1 := by
  unfold val_main_call2_v12
  rw [reduce_andi_ones _ _ _ _ (v11_ones x0) j]
  rfl

/-- The gather reads the table at the pixel's position. -/
theorem v13_apply (x0 : (⟨S16x512x512x3, .f32⟩ : BufTy).Contents (Elt Ideal)) (x1 : (⟨S16x256x3, .f32⟩ : BufTy).Contents (Elt Ideal))
    (b : Fin 16) (p : Fin 262144) (c : Fin 3) :
    val_main_call2_v13 (F := Ideal) x0 x1 (ix3 b p c)
      = lookupAt (shapeCast S16x262144x3 x0 shapeCasts_S16x512x512x3_S16x262144x3) x1 b p c := by
  unfold val_main_call2_v13
  refine (gather_along x1 _ b p c).trans ?_
  have e : min (val_main_call2_v5 (F := Ideal) x0 (ix4 b p c (0 : Fin 1))).toInt.toNat 255
      = (pos (shapeCast S16x262144x3 x0 shapeCasts_S16x512x512x3_S16x262144x3 (ix3 b p c))).toNat := by
    rw [call2_v5_apply, (small_word _ (pos_lt _)).2.2.2]
    have := pos_lt (shapeCast S16x262144x3 x0 shapeCasts_S16x512x512x3_S16x262144x3 (ix3 b p c))
    omega
  unfold lookupAt
  refine congrArg x1 (funext fun a => ?_)
  match a with
  | ⟨0, _⟩ => rfl
  | ⟨1, _⟩ => exact Fin.ext e
  | ⟨2, _⟩ => rfl

/-- THE REFERENCE'S FLAT RESULT is the specification of the flat image and the tables. -/
theorem ref_flat (x0 : (⟨S16x512x512x3, .f32⟩ : BufTy).Contents (Elt Ideal)) (x1 : (⟨S16x256x3, .f32⟩ : BufTy).Contents (Elt Ideal)) :
    val_main_v6 (F := Ideal) x0 x1 = lookup (shapeCast S16x262144x3 x0 shapeCasts_S16x512x512x3_S16x262144x3) x1 := by
  funext j
  obtain ⟨b, p, c, rfl⟩ : ∃ (b : Fin 16) (p : Fin 262144) (c : Fin 3), j = ix3 b p c := ⟨j 0, j 1, j 2, eq_ix3 j⟩
  rw [val_main_v6_apply, v12_one, select_one, v13_apply]
  rfl

/-- And its result, recast. -/
theorem ref_result (x0 : (⟨S16x512x512x3, .f32⟩ : BufTy).Contents (Elt Ideal)) (x1 : (⟨S16x256x3, .f32⟩ : BufTy).Contents (Elt Ideal)) :
    val_main_v7 (F := Ideal) x0 x1
      = shapeCast S16x512x512x3 (lookup (shapeCast S16x262144x3 x0 shapeCasts_S16x512x512x3_S16x262144x3) x1)
          shapeCasts_S16x262144x3_S16x512x512x3 := by
  unfold val_main_v7
  rw [ref_flat]

end Cert.ReferenceIdeal.RefValue

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.KernelBody.lean ====
/-
  What one grid point's body leaves at an entry of its output block.

  The body holds a block x of 4096 pixel rows by 3 channels and, for the point's batch entry, two 16 × 16 × 3 tables
  A and B. For pixel row r and channel c let v be the table position of x(r, c) (a word below 256), h = v / 16 its row
  and l = v % 16 its column in the 16 × 16 arrangement. The body forms the matrix of one-hot rows [h = k] (k < 16),
  multiplies it by channel c of A and of B and adds the products — row r of the sum is row h of A + B —, multiplies
  entry by entry with the one-hot rows [l = j] (j < 16) and sums each row: what is left at (r, c) is
  A(h, l, c) + B(h, l, c). Every sum here has one non-zero term, so nothing is asked of the tables' values
  (on the extended reals 0 · x = 0 and 1 · x = x for every x, infinite or not).
-/
import proofs.«102420_j3616362463510_2_alg».proof.Proof.Gen.KernelIdeal.Frame
import proofs.«102420_j3616362463510_2_alg».proof.Proof.LibPixelIndex
import proofs.«102420_j3616362463510_2_alg».proof.Proof.LibPlainMatmul
import proofs.«102420_j3616362463510_2_alg».proof.Proof.LibRows
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Lookup

/-! ## The one-hot rows of a column of words -/

/-- The matrix whose row `r` is one-hot at the word `sel (r, 0)`: entry `(r, k)` is the equality bit of that word and
    the lane number `k`, as a float. -/
def hot (sel : IVec S4096x1 32) : FVec Ideal S4096x16 .f32 :=
  sitofp .f32 (extui 32 (cmpi .eq (broadcastTo S4096x16 sel broadcasts_S4096x1_S4096x16)
    (iota .tc S4096x16 32 [1] iota_S4096x16_d1_w32)) natLt_1_32)

/-- Where the word in row `r` is the number `h` below 16, row `r` is one-hot at `h`. -/
theorem hot_apply (sel : IVec S4096x1 32) (r : Fin 4096) (h k : Fin 16) (hs : sel (ix2 r 0) = BitVec.ofNat 32 h.val) :
    hot sel (ix2 r k) = if h = k then 1 else 0 := by
  have e1 : broadcastTo S4096x16 sel broadcasts_S4096x1_S4096x16 (ix2 r k) = sel (ix2 r 0) :=
    Cert.Rows.bcast_col (by decide) sel _ r k
  have e2 : iota .tc S4096x16 32 [1] iota_S4096x16_d1_w32 (ix2 r k) = BitVec.ofNat 32 k.val :=
    iota_single_apply .tc S4096x16 32 1 _ (ix2 r k)
  show ((((IntOp.cmpi .eq (broadcastTo S4096x16 sel broadcasts_S4096x1_S4096x16 (ix2 r k))
    (iota .tc S4096x16 32 [1] iota_S4096x16_d1_w32 (ix2 r k))).setWidth 32).toInt : ℝ) : EReal) = _
  rw [e1, e2, hs]
  exact onehot h k

/-! ## Selecting one table entry by two one-hot factors -/

/-- Row sums of `(oh · Thi + oh · Tlo) ∘ hot lo`, kept as a column. -/
def column (oh : FVec Ideal S4096x16 .f32) (Thi Tlo : FVec Ideal S16x16 .bf16) (lo : IVec S4096x1 32) :
    FVec Ideal S4096x1 .f32 :=
  shapeCast S4096x1
    (multiReduction .add [1] S4096
      (mulf (addf (matmul dot_S4096x16_S16x16_S4096x16_1_0_0_1_n_n none (truncf .bf16 oh bitsLt_bf16_f32) Thi (constant S4096x16 .f32 0x00000000#32))
                  (matmul dot_S4096x16_S16x16_S4096x16_1_0_0_1_n_n none (truncf .bf16 oh bitsLt_bf16_f32) Tlo (constant S4096x16 .f32 0x00000000#32)))
            (hot lo))
      0x00000000#32 reduces_S4096x16_S4096 (.inl rfl) rfl)
    shapeCasts_S4096_S4096x1

/-- A product of a matrix whose row `r` is one-hot at `h` with a table reads, in row `r`, row `h` of the table. -/
theorem onehot_matmul (oh : FVec Ideal S4096x16 .f32) (T : FVec Ideal S16x16 .bf16) (r : Fin 4096) (h j : Fin 16)
    (hoh : ∀ k : Fin 16, oh (ix2 r k) = if h = k then 1 else 0) :
    matmul dot_S4096x16_S16x16_S4096x16_1_0_0_1_n_n none (truncf .bf16 oh bitsLt_bf16_f32) T (constant S4096x16 .f32 0x00000000#32) (ix2 r j)
      = T (ix2 h j) := by
  refine (Cert.LibPlainMatmul.matmul_zero_apply dot_S4096x16_S16x16_S4096x16_1_0_0_1_n_n rfl rfl rfl rfl rfl rfl none
    (truncf .bf16 oh bitsLt_bf16_f32) T r j).trans ?_
  show ∑ k : Fin 16, oh (ix2 r k) * T (ix2 k j) = _
  simp only [hoh]
  exact sum_onehot_mul h (fun k => T (ix2 k j))

/-- THE SELECTED ENTRY: where row `r` of `oh` is one-hot at `h` and the word `lo (r, 0)` is the number `l`, the column
    holds `Thi (h, l) + Tlo (h, l)` in row `r`. -/
theorem column_apply (oh : FVec Ideal S4096x16 .f32) (Thi Tlo : FVec Ideal S16x16 .bf16) (lo : IVec S4096x1 32)
    (r : Fin 4096) (h l : Fin 16) (hoh : ∀ k : Fin 16, oh (ix2 r k) = if h = k then 1 else 0)
    (hlo : lo (ix2 r 0) = BitVec.ofNat 32 l.val) :
    column oh Thi Tlo lo (ix2 r 0) = Thi (ix2 h l) + Tlo (ix2 h l) := by
  unfold column
  refine (Cert.Rows.cast_col _ shapeCasts_S4096_S4096x1 r).trans ?_
  refine (Ideal.multiReduction_add_single _ 0x00000000#32 reduces_S4096x16_S4096 (.inl rfl) rfl (ix1 r)).trans ?_
  refine (Finset.sum_congr rfl (fun k _ => congrArg _ (Cert.Rows.lift_row reduces_S4096x16_S4096 r k))).trans ?_
  show ∑ j : Fin 16,
      (matmul dot_S4096x16_S16x16_S4096x16_1_0_0_1_n_n none (truncf .bf16 oh bitsLt_bf16_f32) Thi (constant S4096x16 .f32 0x00000000#32) (ix2 r j)
        + matmul dot_S4096x16_S16x16_S4096x16_1_0_0_1_n_n none (truncf .bf16 oh bitsLt_bf16_f32) Tlo (constant S4096x16 .f32 0x00000000#32) (ix2 r j))
      * hot lo (ix2 r j) = _
  have e : ∀ j : Fin 16,
      (matmul dot_S4096x16_S16x16_S4096x16_1_0_0_1_n_n none (truncf .bf16 oh bitsLt_bf16_f32) Thi (constant S4096x16 .f32 0x00000000#32) (ix2 r j)
        + matmul dot_S4096x16_S16x16_S4096x16_1_0_0_1_n_n none (truncf .bf16 oh bitsLt_bf16_f32) Tlo (constant S4096x16 .f32 0x00000000#32) (ix2 r j))
      * hot lo (ix2 r j) = (Thi (ix2 h j) + Tlo (ix2 h j)) * (if l = j then 1 else 0) := fun j => by
    rw [onehot_matmul oh Thi r h j hoh, onehot_matmul oh Tlo r h j hoh, hot_apply lo r l j hlo]
  rw [Finset.sum_congr rfl (fun j _ => e j)]
  exact sum_mul_onehot l (fun j => Thi (ix2 h j) + Tlo (ix2 h j))

/-! ## The payloads as those compositions -/

/-- Channel `0`'s column of the block. -/
theorem pay10_eq (v3 v5 : FVec Ideal S16x16x3 .bf16) (v13 v15 : IVec S4096x3 32) (v34 : IVec S4096x3 1) (v36 : IVec S4096x3 32) :
    k0_pay10 (F := Ideal) v3 v5 v13 v15 v34 v36
      = column (hot (extractStridedSlice S4096x1 ![0, 0] (k0_pay8 v15 v34 v36) slices_S4096x3_o0_0_S4096x1))
          (shapeCast S16x16 (extractStridedSlice S16x16x1 ![0, 0, 0] v3 slices_S16x16x3_o0_0_0_S16x16x1) shapeCasts_S16x16x1_S16x16)
          (shapeCast S16x16 (extractStridedSlice S16x16x1 ![0, 0, 0] v5 slices_S16x16x3_o0_0_0_S16x16x1) shapeCasts_S16x16x1_S16x16)
          (extractStridedSlice S4096x1 ![0, 0] (k0_pay9 v13 v15 v34 v36) slices_S4096x3_o0_0_S4096x1) := rfl

/-- Channel `1`'s column of the block. -/
theorem pay11_eq (v3 v5 : FVec Ideal S16x16x3 .bf16) (v13 v15 : IVec S4096x3 32) (v34 : IVec S4096x3 1) (v36 : IVec S4096x3 32) :
    k0_pay11 (F := Ideal) v3 v5 v13 v15 v34 v36
      = column (hot (extractStridedSlice S4096x1 ![0, 1] (k0_pay8 v15 v34 v36) slices_S4096x3_o0_1_S4096x1))
          (shapeCast S16x16 (extractStridedSlice S16x16x1 ![0, 0, 1] v3 slices_S16x16x3_o0_0_1_S16x16x1) shapeCasts_S16x16x1_S16x16)
          (shapeCast S16x16 (extractStridedSlice S16x16x1 ![0, 0, 1] v5 slices_S16x16x3_o0_0_1_S16x16x1) shapeCasts_S16x16x1_S16x16)
          (extractStridedSlice S4096x1 ![0, 1] (k0_pay9 v13 v15 v34 v36) slices_S4096x3_o0_1_S4096x1) := rfl

/-- The one-hot rows of channel `2`. -/
theorem pay13_eq (v15 : IVec S4096x3 32) (v34 : IVec S4096x3 1) (v36 : IVec S4096x3 32) :
    k0_pay13 (F := Ideal) v15 v34 v36 = hot (extractStridedSlice S4096x1 ![0, 2] (k0_pay8 v15 v34 v36) slices_S4096x3_o0_2_S4096x1) := rfl

/-- The stored block: the three channels' columns side by side, with the leading unit axis. -/
theorem pay1_eq (v3 v5 : FVec Ideal S16x16x3 .bf16) (v41 : IVec S4096x16 32) (v62 v83 : FVec Ideal S4096x1 .f32)
    (v85 : IVec S4096x1 32) (v89 : FVec Ideal S4096x16 .f32) :
    k0_pay1 (F := Ideal) v3 v5 (iota .tc S4096x16 32 [1] iota_S4096x16_d1_w32) v62 v83 v85 v89
      = shapeCast S1x4096x3 (concatenate S4096x3 1 [⟨S4096x1, v62⟩, ⟨S4096x1, v83⟩,
          ⟨S4096x1, column v89
            (shapeCast S16x16 (extractStridedSlice S16x16x1 ![0, 0, 2] v3 slices_S16x16x3_o0_0_2_S16x16x1) shapeCasts_S16x16x1_S16x16)
            (shapeCast S16x16 (extractStridedSlice S16x16x1 ![0, 0, 2] v5 slices_S16x16x3_o0_0_2_S16x16x1) shapeCasts_S16x16x1_S16x16)
            v85⟩] concatenates_S4096x1_S4096x1_S4096x1_S4096x3_d1) shapeCasts_S4096x3_S1x4096x3 := rfl

end Cert.KernelIdeal.Body

end
-- ==== Proof.KernelEntry.lean ====
/-
  One grid point's output block, entry by entry.

  With x the point's block of pixels and A, B its two tables: the entry (r, c) of what the body stores is
  A(h, l, c) + B(h, l, c), where h and l are the row and column of the table position of the pixel x(r, c).
  The three channels are the three columns of the stored block; each is the selected-entry sum of the channel's
  one-hot rows and the channel's slices of the tables.
-/
import proofs.«102420_j3616362463510_2_alg».proof.Proof.KernelBody

noncomputable section

namespace Cert.KernelIdeal.Body

open Cert.KernelIdeal Cert.KernelIdeal.Gen Idealize.ShloMosaic Idealize.ShloMosaic.ValueIdx Cert.Lookup

/-! ## Layout readings -/

/-- Column `ch` of a 4096 × 3 array, as a 4096 × 1 column, at row `r`. -/
theorem slice_col {α : Type} (ch : Fin 3) (X : S4096x3.Idx → α) (h : S4096x3.Slices ![0, ch.val] S4096x1) (r : Fin 4096) :
    extractStridedSlice S4096x1 ![0, ch.val] X h (ix2 r 0) = X (ix2 r ch) :=
  extractStridedSlice_apply _ X h (ix2 r 0) (ix2 r ch) (fun a => match a with
    | ⟨0, _⟩ => by show r.val = 0 + r.val; omega
    | ⟨1, _⟩ => by show ch.val = ch.val + 0; omega)

/-- Channel `ch` of a 16 × 16 × 3 table, as a 16 × 16 matrix, at `(h, l)`. -/
theorem slice_tab {α : Type} (ch : Fin 3) (T : S16x16x3.Idx → α) (h1 : S16x16x3.Slices ![0, 0, ch.val] S16x16x1)
    (h2 : S16x16x1.ShapeCasts S16x16) (h l : Fin 16) :
    shapeCast S16x16 (extractStridedSlice S16x16x1 ![0, 0, ch.val] T h1) h2 (ix2 h l) = T (ix3 h l ch) := by
  refine (shapeCast_apply _ h2 (ix2 h l) (ix3 h l (0 : Fin 1)) (by
    rw [Shape.rowMajor_val_three, Shape.rowMajor_val_two]
    show (h.val * 16 + l.val) * 1 + 0 = h.val * 16 + l.val; omega)).trans ?_
  exact extractStridedSlice_apply _ T h1 (ix3 h l (0 : Fin 1)) (ix3 h l ch) (fun a => match a with
    | ⟨0, _⟩ => by show h.val = 0 + h.val; omega
    | ⟨1, _⟩ => by show l.val = 0 + l.val; omega
    | ⟨2, _⟩ => by show ch.val = ch.val + 0; omega)

/-- A table block without its leading unit axis. -/
theorem pay2_apply (x1 : Vec Ideal S1x16x16x3 .bf16) (h l : Fin 16) (ch : Fin 3) :
    k0_pay2 (F := Ideal) x1 (ix3 h l ch) = x1 (ix4 (0 : Fin 1) h l ch) :=
  shapeCast_apply x1 shapeCasts_S1x16x16x3_S16x16x3 (ix3 h l ch) (ix4 (0 : Fin 1) h l ch) (by
    rw [Shape.rowMajor_val_four, Shape.rowMajor_val_three]
    show ((0 * 16 + h.val) * 16 + l.val) * 3 + ch.val = (h.val * 16 + l.val) * 3 + ch.val; omega)
theorem pay3_apply (x2 : Vec Ideal S1x16x16x3 .bf16) (h l : Fin 16) (ch : Fin 3) :
    k0_pay3 (F := Ideal) x2 (ix3 h l ch) = x2 (ix4 (0 : Fin 1) h l ch) :=
  shapeCast_apply x2 shapeCasts_S1x16x16x3_S16x16x3 (ix3 h l ch) (ix4 (0 : Fin 1) h l ch) (by
    rw [Shape.rowMajor_val_four, Shape.rowMajor_val_three]
    show ((0 * 16 + h.val) * 16 + l.val) * 3 + ch.val = (h.val * 16 + l.val) * 3 + ch.val; omega)

/-! ## The words of a pixel -/

/-- The position word of the pixel `(r, c)` of the block. -/
theorem pay4_apply (x0 : Vec Ideal S1x4096x3 .f32) (r : Fin 4096) (c : Fin 3) :
    k0_pay4 (F := Ideal) x0 (ix2 r c) = pos (x0 (ix3 (0 : Fin 1) r c)) := by
  have e : shapeCast S4096x3 x0 shapeCasts_S1x4096x3_S4096x3 (ix2 r c) = x0 (ix3 (0 : Fin 1) r c) :=
    shapeCast_apply x0 _ (ix2 r c) (ix3 (0 : Fin 1) r c) (by
      rw [Shape.rowMajor_val_three, Shape.rowMajor_val_two]
      show (0 * 4096 + r.val) * 3 + c.val = r.val * 3 + c.val; omega)
  show Ideal.fptosi 32 (min (Ideal.ofBits .f32 0x437F0000#32) (max (Ideal.ofBits .f32 0x00000000#32)
    (Ideal.liftRound Ideal.roundHalfEven (Ideal.ofBits .f32 0x437F0000#32 * shapeCast S4096x3 x0 shapeCasts_S1x4096x3_S4096x3 (ix2 r c))))) = _
  rw [e]; rfl

/-- Its row word: the floor quotient by 16 … -/
theorem pay8_apply (x0 : Vec Ideal S1x4096x3 .f32) (r : Fin 4096) (c : Fin 3) :
    k0_pay8 (k0_pay5 (F := Ideal) x0) (k0_pay6 (F := Ideal) x0) (k0_pay7 (F := Ideal) x0) (ix2 r c)
      = BitVec.ofNat 32 (rowOf (x0 (ix3 (0 : Fin 1) r c))).val := by
  have e : k0_pay8 (k0_pay5 (F := Ideal) x0) (k0_pay6 (F := Ideal) x0) (k0_pay7 (F := Ideal) x0) (ix2 r c)
      = rowWord (k0_pay4 (F := Ideal) x0 (ix2 r c)) := rfl
  rw [e, pay4_apply, rowWord_pos]

/-- … and its column word: what is left. -/
theorem pay9_apply (x0 : Vec Ideal S1x4096x3 .f32) (r : Fin 4096) (c : Fin 3) :
    k0_pay9 (k0_pay4 (F := Ideal) x0) (k0_pay5 (F := Ideal) x0) (k0_pay6 (F := Ideal) x0) (k0_pay7 (F := Ideal) x0) (ix2 r c)
      = BitVec.ofNat 32 (colOf (x0 (ix3 (0 : Fin 1) r c))).val := by
  have e : k0_pay9 (k0_pay4 (F := Ideal) x0) (k0_pay5 (F := Ideal) x0) (k0_pay6 (F := Ideal) x0) (k0_pay7 (F := Ideal) x0) (ix2 r c)
      = colWord (k0_pay4 (F := Ideal) x0 (ix2 r c)) := rfl
  rw [e, pay4_apply, colWord_pos]

/-! ## One channel's column -/

/-- Channel `ch`'s column at row `r`: the sum of the two tables' entries at the pixel's row and column. -/
theorem chan_entry (ch : Fin 3) (x0 : Vec Ideal S1x4096x3 .f32) (x1 x2 : Vec Ideal S1x16x16x3 .bf16) (r : Fin 4096)
    (hs : S4096x3.Slices ![0, ch.val] S4096x1) (ht : S16x16x3.Slices ![0, 0, ch.val] S16x16x1) :
    column (hot (extractStridedSlice S4096x1 ![0, ch.val] (k0_pay8 (k0_pay5 (F := Ideal) x0) (k0_pay6 (F := Ideal) x0) (k0_pay7 (F := Ideal) x0)) hs))
        (shapeCast S16x16 (extractStridedSlice S16x16x1 ![0, 0, ch.val] (k0_pay2 (F := Ideal) x1) ht) shapeCasts_S16x16x1_S16x16)
        (shapeCast S16x16 (extractStridedSlice S16x16x1 ![0, 0, ch.val] (k0_pay3 (F := Ideal) x2) ht) shapeCasts_S16x16x1_S16x16)
        (extractStridedSlice S4096x1 ![0, ch.val] (k0_pay9 (k0_pay4 (F := Ideal) x0) (k0_pay5 (F := Ideal) x0) (k0_pay6 (F := Ideal) x0) (k0_pay7 (F := Ideal) x0)) hs)
        (ix2 r 0)
      = x1 (ix4 (0 : Fin 1) (rowOf (x0 (ix3 (0 : Fin 1) r ch))) (colOf (x0 (ix3 (0 : Fin 1) r ch))) ch)
        + x2 (ix4 (0 : Fin 1) (rowOf (x0 (ix3 (0 : Fin 1) r ch))) (colOf (x0 (ix3 (0 : Fin 1) r ch))) ch) := by
  refine (column_apply _ _ _ _ r (rowOf (x0 (ix3 (0 : Fin 1) r ch))) (colOf (x0 (ix3 (0 : Fin 1) r ch))) (fun k => ?_) ?_).trans ?_
  · exact hot_apply _ r _ k ((slice_col ch _ hs r).trans (pay8_apply x0 r ch))
  · exact (slice_col ch _ hs r).trans (pay9_apply x0 r ch)
  · rw [slice_tab, slice_tab, pay2_apply, pay3_apply]

/-! ## The stored block -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Three columns side by side, read at row `r`: column `c` of the result is the `c`-th column. -/
theorem concat3_apply {α : Type} (u0 u1 u2 : S4096x1.Idx → α) (h : Shape.Concatenates [S4096x1, S4096x1, S4096x1] S4096x3 1)
    (r : Fin 4096) :
    concatenate S4096x3 1 [⟨S4096x1, u0⟩, ⟨S4096x1, u1⟩, ⟨S4096x1, u2⟩] h (ix2 r (0 : Fin 3)) = u0 (ix2 r 0)
    ∧ concatenate S4096x3 1 [⟨S4096x1, u0⟩, ⟨S4096x1, u1⟩, ⟨S4096x1, u2⟩] h (ix2 r (1 : Fin 3)) = u1 (ix2 r 0)
    ∧ concatenate S4096x3 1 [⟨S4096x1, u0⟩, ⟨S4096x1, u1⟩, ⟨S4096x1, u2⟩] h (ix2 r (2 : Fin 3)) = u2 (ix2 r 0) := by
  refine ⟨?_, ?_, ?_⟩
  · exact concatenate_apply_piece 1 [⟨S4096x1, u0⟩, ⟨S4096x1, u1⟩, ⟨S4096x1, u2⟩] h (ix2 r (0 : Fin 3)) 0 (by show 0 < 3; omega)
      S4096x1 u0 rfl rfl 0 rfl (ix2 r 0) (fun b hb => match b with
        | ⟨0, _⟩ => rfl
        | ⟨1, _⟩ => absurd rfl hb) rfl
  · exact concatenate_apply_piece 1 [⟨S4096x1, u0⟩, ⟨S4096x1, u1⟩, ⟨S4096x1, u2⟩] h (ix2 r (1 : Fin 3)) 1 (by show 1 < 3; omega)
      S4096x1 u1 rfl rfl 1 rfl (ix2 r 0) (fun b hb => match b with
        | ⟨0, _⟩ => rfl
        | ⟨1, _⟩ => absurd rfl hb) rfl
  · exact concatenate_apply_piece 1 [⟨S4096x1, u0⟩, ⟨S4096x1, u1⟩, ⟨S4096x1, u2⟩] h (ix2 r (2 : Fin 3)) 2 (by show 2 < 3; omega)
      S4096x1 u2 rfl rfl 2 rfl (ix2 r 0) (fun b hb => match b with
        | ⟨0, _⟩ => rfl
        | ⟨1, _⟩ => absurd rfl hb) rfl

/-- Channel `2`'s lane words are the slice of the column words. -/
theorem pay12_eq (v13 v15 : IVec S4096x3 32) (v34 : IVec S4096x3 1) (v36 : IVec S4096x3 32) :
    k0_pay12 v13 v15 v34 v36 = extractStridedSlice S4096x1 ![0, 2] (k0_pay9 v13 v15 v34 v36) slices_S4096x3_o0_2_S4096x1 := rfl

/-- THE BLOCK AT AN ENTRY: what the body leaves at `(0, r, c)` of its output block, from its three input blocks. -/
theorem out_entry (x0 : Vec Ideal S1x4096x3 .f32) (x1 x2 : Vec Ideal S1x16x16x3 .bf16) (r : Fin 4096) (c : Fin 3) :
    out0_3 (F := Ideal) x0 x1 x2 (ix3 (0 : Fin 1) r c)
      = x1 (ix4 (0 : Fin 1) (rowOf (x0 (ix3 (0 : Fin 1) r c))) (colOf (x0 (ix3 (0 : Fin 1) r c))) c)
        + x2 (ix4 (0 : Fin 1) (rowOf (x0 (ix3 (0 : Fin 1) r c))) (colOf (x0 (ix3 (0 : Fin 1) r c))) c) := by
  unfold out0_3
  rw [View.canon_unit_zero hz3]
  simp only [View.ld_unit_zero (S := S1x16x16x3) hz4, View.ld_unit_zero (S := S1x4096x3) hz3]
  rw [pay1_eq _ _ (iota .tc S4096x16 32 [1] iota_S4096x16_d1_w32), pay10_eq, pay11_eq, pay13_eq, pay12_eq]
  refine (shapeCast_apply _ shapeCasts_S4096x3_S1x4096x3 (ix3 (0 : Fin 1) r c) (ix2 r c) (by
    rw [Shape.rowMajor_val_two, Shape.rowMajor_val_three]
    show r.val * 3 + c.val = (0 * 4096 + r.val) * 3 + c.val; omega)).trans ?_
  match c with
  | ⟨0, _⟩ => exact ((concat3_apply _ _ _ _ r).1).trans (chan_entry 0 x0 x1 x2 r _ _)
  | ⟨1, _⟩ => exact ((concat3_apply _ _ _ _ r).2.1).trans (chan_entry 1 x0 x1 x2 r _ _)
  | ⟨2, _⟩ => exact ((concat3_apply _ _ _ _ r).2.2).trans (chan_entry 2 x0 x1 x2 r _ _)

end Cert.KernelIdeal.Body

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.KernelArray.lean ====
/-
  The kernel's result array.

  Before the grid runs, the host has laid the image out flat ([16, 262144, 3]), arranged each batch entry's table as
  16 × 16 × 3 (position v at row v / 16, column v % 16), and formed a second table, the first minus itself — zero,
  because the tables' entries are real numbers (the precondition; on the extended reals ⊤ − ⊤ is not 0). Grid point t
  handles batch entry t / 64 and pixels (t % 64) · 4096 … + 4095; it reads that block of the flat image and the batch
  entry's two tables and writes the block of the result. By the entry-by-entry reading of the body, what it writes is
  the block of the specification: A(h, l, c) + B(h, l, c) = it(b, 16 h + l, c) + 0. The 1024 blocks tile the result,
  so the array ends holding the specification; the host then recasts it to [16, 512, 512, 3].
-/
import proofs.«102420_j3616362463510_2_alg».proof.Defs
import proofs.«102420_j3616362463510_2_alg».proof.Proof.Gen.KernelIdeal.Frame
import proofs.«102420_j3616362463510_2_alg».proof.Proof.Gen.Pre_finite_inputs
import proofs.«102420_j3616362463510_2_alg».proof.Proof.KernelEntry
import proofs.«102420_j3616362463510_2_alg».proof.Proof.TableSpec
import proofs.«102420_j3616362463510_2_alg».proof.Proof.LibFiniteAll
import Idealize.ShloMosaic.Lib.Pipeline.Value
import Idealize.ShloMosaic.Lib.StableHlo.Run
import Idealize.ShloMosaic.Lib.ReduceAll

noncomputable section

namespace Cert.KernelIdeal.Arr

open Cert.KernelIdeal Cert.KernelIdeal.Gen Cert.KernelIdeal.Body Cert.Lookup
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## What the host prepares -/

/-- The image, flat. -/
abbrev flatIm (c : Dev nD) : (⟨S16x262144x3, .f32⟩ : BufTy).Contents (Elt Ideal) :=
  shapeCast S16x262144x3 (m ((c : Thread nD τ).loc main_arg0)) shapeCasts_S16x512x512x3_S16x262144x3
/-- The tables, each arranged 16 × 16 × 3. -/
abbrev tabs (c : Dev nD) : FVec Ideal S16x16x16x3 .f32 :=
  shapeCast S16x16x16x3 (m ((c : Thread nD τ).loc main_arg1)) shapeCasts_S16x256x3_S16x16x16x3

theorem V_v0 (c : Dev nD) : (V m c main_v0 : (⟨S16x262144x3, .f32⟩ : BufTy).Contents (Elt Ideal)) = flatIm m c := by
  show StableHlo.after hostOps0 (fun b => m (c, b)) (Proc.devRef .tc main_v0) = _
  after_results; rfl

/-- The first table as staged: the arranged tables (a change of format is the identity). -/
abbrev tabsA (c : Dev nD) : FVec Ideal S16x16x16x3 .bf16 :=
  truncf (F := Ideal) .bf16 (tabs m c) bitsLt_bf16_f32
/-- The second table as staged: the arranged tables minus themselves. -/
abbrev tabsB (c : Dev nD) : FVec Ideal S16x16x16x3 .bf16 :=
  truncf (F := Ideal) .bf16 (subf (tabs m c) (extf (F := Ideal) .f32 (truncf (F := Ideal) .bf16 (tabs m c) bitsLt_bf16_f32) bitsLt_bf16_f32)) bitsLt_bf16_f32

theorem V_v2 (c : Dev nD) : (V m c main_v2 : FVec Ideal S16x16x16x3 .bf16) = tabsA m c := by
  show StableHlo.after hostOps0 (fun b => m (c, b)) (Proc.devRef .tc main_v2) = _
  after_results; rfl

theorem V_v5 (c : Dev nD) : (V m c main_v5 : FVec Ideal S16x16x16x3 .bf16) = tabsB m c := by
  show StableHlo.after hostOps0 (fun b => m (c, b)) (Proc.devRef .tc main_v5) = _
  after_results; rfl

/-- The arranged table at `(b, h, l, ch)` is the table at position `16 h + l`. -/
theorem tabs_apply (c : Dev nD) (b h l : Fin 16) (ch : Fin 3) :
    tabs m c (ix4 b h l ch) = m ((c : Thread nD τ).loc main_arg1) (ix3 b (⟨h.val * 16 + l.val, by omega⟩ : Fin 256) ch) :=
  shapeCast_apply _ shapeCasts_S16x256x3_S16x16x16x3 (ix4 b h l ch) (ix3 b (⟨h.val * 16 + l.val, by omega⟩ : Fin 256) ch) (by
    rw [Shape.rowMajor_val_three, Shape.rowMajor_val_four]
    show (b.val * 256 + (h.val * 16 + l.val)) * 3 + ch.val = ((b.val * 16 + h.val) * 16 + l.val) * 3 + ch.val; omega)

/-! ## The tables are real -/

/-- Under the precondition every entry of the tables is a real number. -/
theorem tables_real (hpre : Cert.Pre_KernelIdeal m) (c : Dev nD) :
    ∀ i, ∃ r : ℝ, m ((c : Thread nD τ).loc main_arg1) i = (r : EReal) := by
  have h := congrFun (hpre c) ix0
  dsimp only [Cert.Pre_finite_inputs.fn] at h
  exact Cert.FiniteAll.all_real _ _ _ _ ix0 (IntOp.andi_eq_one.mp h).2

/-! ## The grid -/

/-- The index maps over the 1024 points, decided: point `t` is batch entry `t / 64`, pixel block `t % 64`. -/
theorem idx_facts : ∀ t : Fin cfg0.N,
    win0_0.index t (0 : Fin 3) = t.val / 64 ∧ win0_0.index t (1 : Fin 3) = t.val % 64 ∧ win0_0.index t (2 : Fin 3) = 0
    ∧ win0_1.index t (0 : Fin 4) = t.val / 64 ∧ win0_1.index t (1 : Fin 4) = 0 ∧ win0_1.index t (2 : Fin 4) = 0 ∧ win0_1.index t (3 : Fin 4) = 0
    ∧ win0_2.index t (0 : Fin 4) = t.val / 64 ∧ win0_2.index t (1 : Fin 4) = 0 ∧ win0_2.index t (2 : Fin 4) = 0 ∧ win0_2.index t (3 : Fin 4) = 0
    ∧ win0_3.index t (0 : Fin 3) = t.val / 64 ∧ win0_3.index t (1 : Fin 3) = t.val % 64 ∧ win0_3.index t (2 : Fin 3) = 0 :=
  (by decide +kernel : ∀ t : Fin grid0.N, _)

/-! ## One block -/

/-- A block of the result from blocks of the flat image `X`, of the tables `IT` arranged 16 × 16, and of zeros: the
    block of the specification. Stated over variables of the literal block types. -/
theorem block_entry (x0 : Vec Ideal S1x4096x3 .f32) (x1 x2 : Vec Ideal S1x16x16x3 .bf16)
    (X : (⟨3, ![16, 262144, 3]⟩ : Shape).Idx → EReal) (IT : (⟨3, ![16, 256, 3]⟩ : Shape).Idx → EReal) (bq : Fin 16) (lq : Fin 64)
    (h0 : ∀ (r : Fin 4096) (cc : Fin 3), x0 (ix3 (0 : Fin 1) r cc) = X (ix3 bq (⟨lq.val * 4096 + r.val, by omega⟩ : Fin 262144) cc))
    (h1 : ∀ (h l : Fin 16) (cc : Fin 3), x1 (ix4 (0 : Fin 1) h l cc) = IT (ix3 bq (⟨h.val * 16 + l.val, by omega⟩ : Fin 256) cc))
    (h2 : ∀ (h l : Fin 16) (cc : Fin 3), x2 (ix4 (0 : Fin 1) h l cc) = 0)
    (r : Fin 4096) (cc : Fin 3) :
    out0_3 (F := Ideal) x0 x1 x2 (ix3 (0 : Fin 1) r cc)
      = lookup X IT (ix3 bq (⟨lq.val * 4096 + r.val, by omega⟩ : Fin 262144) cc) := by
  rw [out_entry, h1, h2, add_zero, lookup_apply]
  unfold lookupAt
  refine congrArg IT (funext fun a => ?_)
  match a with
  | ⟨0, _⟩ => rfl
  | ⟨1, _⟩ =>
    refine Fin.ext ?_
    show (rowOf (x0 (ix3 (0 : Fin 1) r cc))).val * 16 + (colOf (x0 (ix3 (0 : Fin 1) r cc))).val
      = (pos (X (ix3 bq (⟨lq.val * 4096 + r.val, by omega⟩ : Fin 262144) cc))).toNat
    rw [row_col_pos, h0 r cc]
  | ⟨2, _⟩ => rfl

/-- The same at a block index. -/
theorem block_entry' (x0 : Vec Ideal S1x4096x3 .f32) (x1 x2 : Vec Ideal S1x16x16x3 .bf16)
    (X : (⟨3, ![16, 262144, 3]⟩ : Shape).Idx → EReal) (IT : (⟨3, ![16, 256, 3]⟩ : Shape).Idx → EReal) (bq : Fin 16) (lq : Fin 64)
    (h0 : ∀ (r : Fin 4096) (cc : Fin 3), x0 (ix3 (0 : Fin 1) r cc) = X (ix3 bq (⟨lq.val * 4096 + r.val, by omega⟩ : Fin 262144) cc))
    (h1 : ∀ (h l : Fin 16) (cc : Fin 3), x1 (ix4 (0 : Fin 1) h l cc) = IT (ix3 bq (⟨h.val * 16 + l.val, by omega⟩ : Fin 256) cc))
    (h2 : ∀ (h l : Fin 16) (cc : Fin 3), x2 (ix4 (0 : Fin 1) h l cc) = 0)
    (y : S1x4096x3.Idx) :
    out0_3 (F := Ideal) x0 x1 x2 y
      = lookup X IT (ix3 bq (⟨lq.val * 4096 + (y 1).val, by have h : (y 1).val < 4096 := (y 1).isLt; omega⟩ : Fin 262144) (⟨(y 2).val, (y 2).isLt⟩ : Fin 3)) := by
  obtain ⟨z, r, cc, rfl⟩ : ∃ (z : Fin 1) (r : Fin 4096) (cc : Fin 3), y = ix3 z r cc := ⟨y 0, y 1, y 2, eq_ix3 y⟩
  obtain rfl : z = 0 := Subsingleton.elim _ _
  exact block_entry x0 x1 x2 X IT bq lq h0 h1 h2 r cc

/-! ## The blocks a point reads -/

theorem lt_N (t : Fin cfg0.N) : t.val < 1024 := lt_of_lt_of_eq t.isLt N_0
/-- The batch entry of a grid point … -/
def bOf (t : Fin cfg0.N) : Fin 16 := ⟨t.val / 64, by have := lt_N t; omega⟩
/-- … and its block of pixels. -/
def lOf (t : Fin cfg0.N) : Fin 64 := ⟨t.val % 64, Nat.mod_lt _ (by norm_num)⟩

/-- The image block of point `t` is rows `(t % 64) · 4096 …` of batch entry `t / 64` of the flat image. -/
theorem iblk0_apply (c : Dev nD) (t : Fin cfg0.N) (r : Fin 4096) (cc : Fin 3) :
    iblk m c 0 t (ix3 (0 : Fin 1) r cc)
      = flatIm m c (ix3 (bOf t) (⟨(lOf t).val * 4096 + r.val, by have := (lOf t).isLt; omega⟩ : Fin 262144) cc) := by
  obtain ⟨e0, e1, e2, -⟩ := idx_facts t
  show V m c main_v0 (((cfg0.win 0).blk t).view.emb (ix3 (0 : Fin 1) r cc)) = _
  rw [V_v0]
  refine congrArg (flatIm m c) (funext fun a => Fin.ext ?_)
  match a with
  | ⟨0, _⟩ => show win0_0.index t (0 : Fin 3) * 1 + 1 * 0 = t.val / 64; omega
  | ⟨1, _⟩ => show win0_0.index t (1 : Fin 3) * 4096 + 1 * r.val = t.val % 64 * 4096 + r.val; omega
  | ⟨2, _⟩ => show win0_0.index t (2 : Fin 3) * 3 + 1 * cc.val = cc.val; omega

/-- The first table block of point `t` is batch entry `t / 64`'s table, position `16 h + l` at `(h, l)`. -/
theorem iblk1_apply (c : Dev nD) (t : Fin cfg0.N) (h l : Fin 16) (cc : Fin 3) :
    iblk m c 1 t (ix4 (0 : Fin 1) h l cc)
      = m ((c : Thread nD τ).loc main_arg1) (ix3 (bOf t) (⟨h.val * 16 + l.val, by omega⟩ : Fin 256) cc) := by
  obtain ⟨-, -, -, e0, e1, e2, e3, -⟩ := idx_facts t
  show V m c main_v2 (((cfg0.win 1).blk t).view.emb (ix4 (0 : Fin 1) h l cc)) = _
  rw [V_v2]
  refine Eq.trans ?_ (tabs_apply m c (bOf t) h l cc)
  show tabs m c _ = tabs m c _
  refine congrArg (tabs m c) (funext fun a => Fin.ext ?_)
  match a with
  | ⟨0, _⟩ => show win0_1.index t (0 : Fin 4) * 1 + 1 * 0 = t.val / 64; omega
  | ⟨1, _⟩ => show win0_1.index t (1 : Fin 4) * 16 + 1 * h.val = h.val; omega
  | ⟨2, _⟩ => show win0_1.index t (2 : Fin 4) * 16 + 1 * l.val = l.val; omega
  | ⟨3, _⟩ => show win0_1.index t (3 : Fin 4) * 3 + 1 * cc.val = cc.val; omega

/-- The second table block of point `t` is zero: a real number minus itself. -/
theorem iblk2_apply (hreal : ∀ c : Dev nD, ∀ i, ∃ r : ℝ, m ((c : Thread nD τ).loc main_arg1) i = (r : EReal))
    (c : Dev nD) (t : Fin cfg0.N) (h l : Fin 16) (cc : Fin 3) :
    @Eq EReal (iblk m c 2 t (ix4 (0 : Fin 1) h l cc)) 0 := by
  obtain ⟨-, -, -, -, -, -, -, e0, e1, e2, e3, -⟩ := idx_facts t
  show V m c main_v5 (((cfg0.win 2).blk t).view.emb (ix4 (0 : Fin 1) h l cc)) = _
  rw [V_v5]
  have e : ((cfg0.win 2).blk t).view.emb (ix4 (0 : Fin 1) h l cc) = ix4 (bOf t) h l cc := by
    funext a; refine Fin.ext ?_
    match a with
    | ⟨0, _⟩ => show win0_2.index t (0 : Fin 4) * 1 + 1 * 0 = t.val / 64; omega
    | ⟨1, _⟩ => show win0_2.index t (1 : Fin 4) * 16 + 1 * h.val = h.val; omega
    | ⟨2, _⟩ => show win0_2.index t (2 : Fin 4) * 16 + 1 * l.val = l.val; omega
    | ⟨3, _⟩ => show win0_2.index t (3 : Fin 4) * 3 + 1 * cc.val = cc.val; omega
  rw [e]
  show tabs m c (ix4 (bOf t) h l cc) - tabs m c (ix4 (bOf t) h l cc) = 0
  rw [tabs_apply]
  obtain ⟨x, hx⟩ := hreal c (ix3 (bOf t) (⟨h.val * 16 + l.val, by omega⟩ : Fin 256) cc)
  rw [hx, ← EReal.coe_sub, sub_self, EReal.coe_zero]

/-! ## From blocks to the array -/

/-- The specification of the arrays as the region finds them. -/
abbrev spec (c : Dev nD) : (⟨S16x262144x3, .f32⟩ : BufTy).Contents (Elt Ideal) :=
  lookup (flatIm m c) (m ((c : Thread nD τ).loc main_arg1))

/-- WHAT POINT `t` WRITES BACK is block `t` of the specification. -/
theorem flushed_eq (hreal : ∀ c : Dev nD, ∀ i, ∃ r : ℝ, m ((c : Thread nD τ).loc main_arg1) i = (r : EReal))
    (c : Dev nD) (t : Fin cfg0.N) :
    (dats m 0 c).flushed 3 t = ((cfg0.win 3).blk t).view.read (Elt Ideal) (spec m c) := by
  show (cfg0.win 3).cut (grid0.coords t) ((dats m 0 c).after 3 t) = _
  rw [after0_3]
  obtain ⟨-, -, -, -, -, -, -, -, -, -, -, e0, e1, e2⟩ := idx_facts t
  funext y
  refine (block_entry' (iblk m c 0 t) (iblk m c 1 t) (iblk m c 2 t) (flatIm m c) (m ((c : Thread nD τ).loc main_arg1)) (bOf t) (lOf t)
    (iblk0_apply m c t) (iblk1_apply m c t) (iblk2_apply m hreal c t) y).trans ?_
  show spec m c _ = spec m c (((cfg0.win 3).blk t).view.emb y)
  refine congrArg (spec m c) (funext fun a => Fin.ext ?_)
  have hy0 : (y 0).val < 1 := (y 0).isLt
  match a with
  | ⟨0, _⟩ => show t.val / 64 = win0_3.index t (0 : Fin 3) * 1 + 1 * (y 0).val; omega
  | ⟨1, _⟩ => show t.val % 64 * 4096 + (y 1).val = win0_3.index t (1 : Fin 3) * 4096 + 1 * (y 1).val; omega
  | ⟨2, _⟩ => show (y 2).val = win0_3.index t (2 : Fin 3) * 3 + 1 * (y 2).val; omega

/-- An index of the array is in point `t`'s block iff each coordinate is in the block's range on its axis. -/
theorem mem_blk (t : Fin cfg0.N) (i : S16x262144x3.Idx) :
    i ∈ ((cfg0.win 3).blk t).view.set ↔ ∀ a : Fin 3, win0_3.index t a * S1x4096x3.size a ≤ (i a).val ∧ (i a).val < win0_3.index t a * S1x4096x3.size a + S1x4096x3.size a := by
  show i ∈ ((View.whole main_v6).slice (win0_3.rect t)).set ↔ _
  rw [View.set_slice_whole, Rect.mem_set_unit]
  exact Iff.rfl

/-- Every index of the result is in the block of the point of its batch entry and pixel block. -/
theorem cover (i : S16x262144x3.Idx) : ∃ t : Fin cfg0.N, (cfg0.win 3).flush t = true ∧ i ∈ ((cfg0.win 3).blk t).view.set := by
  have h0 : (i 0).val < 16 := (i 0).isLt
  have h1 : (i 1).val < 262144 := (i 1).isLt
  have h2 : (i 2).val < 3 := (i 2).isLt
  let t : Fin cfg0.N := ⟨(i 0).val * 64 + (i 1).val / 4096, lt_of_lt_of_eq (by omega : (i 0).val * 64 + (i 1).val / 4096 < 1024) N_0.symm⟩
  obtain ⟨-, -, -, -, -, -, -, -, -, -, -, e0, e1, e2⟩ := idx_facts t
  have ht : t.val = (i 0).val * 64 + (i 1).val / 4096 := rfl
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 3 ≤ (i 2).val ∧ (i 2).val < win0_3.index t (2 : Fin 3) * 3 + 3; omega

/-- THE RESULT ARRAY after the grid: the specification. -/
theorem final (hreal : ∀ c : Dev nD, ∀ i, ∃ r : ℝ, m ((c : Thread nD τ).loc main_arg1) i = (r : EReal)) (c : Dev nD) :
    (dats m 0 c).arrAt 3 cfg0.N = spec m c :=
  (dats m 0 c).arrAt_eq_of_cover 3 (spec m c) (fun t _ => flushed_eq m hreal c t) cover

/-! ## The run -/

/-- The host's last line recasts the result array. -/
theorem tail_v7 (c : Dev nD) :
    Pipeline.afterTail₀ cfgs (dats m) 0 (V0 m) [hostOps1] c main_v7
      = shapeCast S16x512x512x3 ((dats m 0 c).arrAt 3 cfg0.N) shapeCasts_S16x262144x3_S16x512x512x3 := by
  unfold Pipeline.afterTail₀
  show StableHlo.after hostOps1 _ (Proc.devRef .tc main_v7) = _
  after_results
  rw [Pipeline.withArrays_arr spec0 launch0.win.arr_inj c _ _ 3]
  rfl

/-- THE KERNEL'S RUN: every weakly fair execution terminates with the result at the specification, recast, and the
    arguments unchanged. -/
theorem run (hreal : ∀ c : Dev nD, ∀ i, ∃ r : ℝ, m ((c : Thread nD τ).loc main_arg1) i = (r : EReal)) :
    θ_run defs (onTc (τ := τ) (main (F := Ideal))) ⟨m, fun _ => 0, ρ⟩ fun r => ∀ c : Dev nD,
      r.2.mem ((c : Thread nD τ).loc main_v7) = shapeCast S16x512x512x3 (spec m c) shapeCasts_S16x262144x3_S16x512x512x3
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v7 (Pipeline.mem_restRefs_of main_v7 (by decide) (by decide))).trans
          ((tail_v7 m c).trans (by rw [final m hreal c])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Arr

end
-- ==== Proof.lean ====
/-
  A per-pixel table lookup, two ways.

  The claim: for an image im : [16, 512, 512, 3] and tables it : [16, 256, 3] of real numbers, the kernel's program and
  the reference both end with out(b, y, x, c) = it(b, v, c), where v = clamp(round(255 · im(b, y, x, c)), 0, 255) with
  ties rounded to even, as extended reals, entry by entry.

  The reference converts the rounded value to an integer, clamps the integer, and gathers along the table axis. The
  kernel clamps the rounded value, converts, splits v = 16 h + l, and selects entry (h, l) of the table arranged
  16 × 16 by two one-hot factors: a product with the one-hot rows [h = k] picks row h, a product with [l = j] summed
  over j picks column l. It does this for two tables and adds the results: the arranged table itself and that table
  minus itself, which is zero because the tables are real (this is where the precondition enters; nothing is asked
  of the image). Clamping before or after the saturating conversion gives the same integer, at every extended real, so
  the two positions agree and both programs compute the specification `Cert.Lookup.lookup` of the flat image, recast.

  The two kernel frames are the generated ones; the reference's frame is its run with the result dropped; the
  idealization rewrote nothing, so there is nothing to preserve.
-/
import proofs.«102420_j3616362463510_2_alg».proof.Defs
import proofs.«102420_j3616362463510_2_alg».proof.Proof.Gen.Kernel
import proofs.«102420_j3616362463510_2_alg».proof.Proof.Gen.Kernel.Skeleton
import proofs.«102420_j3616362463510_2_alg».proof.Proof.Gen.Kernel.Launch
import proofs.«102420_j3616362463510_2_alg».proof.Proof.Gen.Kernel.Points
import proofs.«102420_j3616362463510_2_alg».proof.Proof.Gen.Kernel.Frame
import proofs.«102420_j3616362463510_2_alg».proof.Proof.Gen.KernelIdeal
import proofs.«102420_j3616362463510_2_alg».proof.Proof.Gen.KernelIdeal.Skeleton
import proofs.«102420_j3616362463510_2_alg».proof.Proof.Gen.KernelIdeal.Launch
import proofs.«102420_j3616362463510_2_alg».proof.Proof.Gen.KernelIdeal.Points
import proofs.«102420_j3616362463510_2_alg».proof.Proof.Gen.KernelIdeal.Frame
import proofs.«102420_j3616362463510_2_alg».proof.Proof.Gen.ReferenceIdeal
import proofs.«102420_j3616362463510_2_alg».proof.Proof.Gen.Pre_finite_inputs
import proofs.«102420_j3616362463510_2_alg».proof.Proof.ReferenceRun
import proofs.«102420_j3616362463510_2_alg».proof.Proof.ReferenceRead
import proofs.«102420_j3616362463510_2_alg».proof.Proof.ReferenceValue
import proofs.«102420_j3616362463510_2_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the specification of the flat image and the tables, recast to the image's shape. -/
theorem algebraic : Cert.algebraic_KernelIdeal_ReferenceIdeal := by
  intro m ρ m' ρ' hpre hagree
  have hreal := fun c => Cert.KernelIdeal.Arr.tables_real m hpre c
  refine ⟨_, Cert.KernelIdeal.Arr.run m ρ hreal, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v7_eq, Cert.ReferenceIdeal.RefValue.ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
